-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3x512 : Shape := ⟨2, ![3, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x512 : S_.BroadcastsInDim S3x512 (![] : Fin 0 → Fin S3x512.rank)
  reducesTo_S3x512_S_d0_1 : S3x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S512 .f32) (main_arg5 : FVec F S512x1024 .f32) (main_arg6 : FVec F S1024 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S100000x3 .f32) (main_arg1 : FVec F S100000x3 .f32) (main_arg2 : FVec F S100000x3 .f32) (main_arg3 : FVec F S3x512 .f32) (main_arg4 : FVec F S512 .f32) (main_arg5 : FVec F S512x1024 .f32) (main_arg6 : FVec F S1024 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_arg6 main_v13 main_v16
-- ==== Kernel.lean ====
abbrev S100000x3 : Shape := ⟨2, ![100000, 3]⟩
abbrev S3x512 : Shape := ⟨2, ![3, 512]⟩
abbrev S512 : Shape := ⟨1, ![512]⟩
abbrev S512x1024 : Shape := ⟨2, ![512, 1024]⟩
abbrev S1024 : Shape := ⟨1, ![1024]⟩
abbrev S1x512 : Shape := ⟨2, ![1, 512]⟩
abbrev S1x1024 : Shape := ⟨2, ![1, 1024]⟩
abbrev S100000x1024 : Shape := ⟨2, ![100000, 1024]⟩
abbrev S2000x3 : Shape := ⟨2, ![2000, 3]⟩
abbrev S2000x1024 : Shape := ⟨2, ![2000, 1024]⟩
abbrev S2000 : Shape := ⟨1, ![2000]⟩
abbrev S2000x1 : Shape := ⟨2, ![2000, 1]⟩
abbrev S2000x512 : Shape := ⟨2, ![2000, 512]⟩

abbrev nBuf : Space → Nat
  | .hbm => 13
  | .vmem => 24
  | .smem => 0
  | _ => 0

abbrev bufTy : (tb : Table) → Fin (tcTables nBuf tb) → BufTy
  | .hbm, ⟨0, _⟩ => ⟨S100000x3, .f32⟩
  | .hbm, ⟨1, _⟩ => ⟨S100000x3, .f32⟩
  | .hbm, ⟨2, _⟩ => ⟨S100000x3, .f32⟩
  | .hbm, ⟨3, _⟩ => ⟨S3x512, .f32⟩
  | .hbm, ⟨4, _⟩ => ⟨S512, .f32⟩
  | .hbm, ⟨5, _⟩ => ⟨S512x1024, .f32⟩
  | .hbm, ⟨6, _⟩ => ⟨S1024, .f32⟩
  | .hbm, ⟨7, _⟩ => ⟨S1x512, .f32⟩
  | .hbm, ⟨8, _⟩ => ⟨S1x1024, .f32⟩
  | .hbm, ⟨9, _⟩ => ⟨S512x1024, .bf16⟩
  | .hbm, ⟨10, _⟩ => ⟨S100000x1024, .f32⟩
  | .hbm, ⟨11, _⟩ => ⟨S100000x1024, .f32⟩
  | .hbm, ⟨12, _⟩ => ⟨S100000x1024, .f32⟩
  | .local _ .vmem, ⟨0, _⟩ => ⟨S2000x3, .f32⟩
  | .local _ .vmem, ⟨1, _⟩ => ⟨S2000x3, .f32⟩
  | .local _ .vmem, ⟨2, _⟩ => ⟨S3x512, .f32⟩
  | .local _ .vmem, ⟨3, _⟩ => ⟨S1x512, .f32⟩
  | .local _ .vmem, ⟨4, _⟩ => ⟨S512x1024, .bf16⟩
  | .local _ .vmem, ⟨5, _⟩ => ⟨S1x1024, .f32⟩
  | .local _ .vmem, ⟨6, _⟩ => ⟨S2000x1024, .f32⟩
  | .local _ .vmem, ⟨7, _⟩ => ⟨S2000x1024, .f32⟩
  | .local _ .vmem, ⟨8, _⟩ => ⟨S2000x3, .f32⟩
  | .local _ .vmem, ⟨9, _⟩ => ⟨S2000x3, .f32⟩
  | .local _ .vmem, ⟨10, _⟩ => ⟨S3x512, .f32⟩
  | .local _ .vmem, ⟨11, _⟩ => ⟨S1x512, .f32⟩
  | .local _ .vmem, ⟨12, _⟩ => ⟨S512x1024, .bf16⟩
  | .local _ .vmem, ⟨13, _⟩ => ⟨S1x1024, .f32⟩
  | .local _ .vmem, ⟨14, _⟩ => ⟨S2000x1024, .f32⟩
  | .local _ .vmem, ⟨15, _⟩ => ⟨S2000x1024, .f32⟩
  | .local _ .vmem, ⟨16, _⟩ => ⟨S2000x3, .f32⟩
  | .local _ .vmem, ⟨17, _⟩ => ⟨S2000x3, .f32⟩
  | .local _ .vmem, ⟨18, _⟩ => ⟨S3x512, .f32⟩
  | .local _ .vmem, ⟨19, _⟩ => ⟨S1x512, .f32⟩
  | .local _ .vmem, ⟨20, _⟩ => ⟨S512x1024, .bf16⟩
  | .local _ .vmem, ⟨21, _⟩ => ⟨S1x1024, .f32⟩
  | .local _ .vmem, ⟨22, _⟩ => ⟨S2000x1024, .f32⟩
  | .local _ .vmem, ⟨23, _⟩ => ⟨S2000x1024, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S512_S1x512 : S512.ShapeCasts S1x512
  shapeCasts_S1024_S1x1024 : S1024.ShapeCasts S1x1024
  bitsLt_bf16_f32 : FTy.bits .bf16 < FTy.bits .f32
  inb_S2000x3_S2000x3_0_0 : ∀ a, (![0, 0] : Fin 2 → Nat) a + S2000x3.size a ≤ S2000x3.size a
  h_S2000x3 : 0 < S2000x3.numel
  reduces_S2000x3_S2000 : S2000x3.Reduces [1] S2000
  shapeCasts_S2000_S2000x1 : S2000.ShapeCasts S2000x1
  inb_S3x512_S3x512_0_0 : ∀ a, (![0, 0] : Fin 2 → Nat) a + S3x512.size a ≤ S3x512.size a
  h_S3x512 : 0 < S3x512.numel
  slices_S3x512_o0_0_S1x512 : S3x512.Slices ![0, 0] S1x512
  slices_S3x512_o1_0_S1x512 : S3x512.Slices ![1, 0] S1x512
  slices_S3x512_o2_0_S1x512 : S3x512.Slices ![2, 0] S1x512
  broadcasts_S2000x1_S2000x512 : S2000x1.Broadcasts S2000x512
  broadcasts_S1x512_S2000x512 : S1x512.Broadcasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  dot_S2000x512_S512x1024_S2000x1024_1_0_0_1_n_n_wf : DotDims.WF S2000x512 S512x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S100000x3.size a
  hwx0_0 : ∀ i : grid0.Coords, EltTy.bits .f32 = 32 ∨ (Rect.block (s := S100000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x512.size a
  hwx0_1 : ∀ i : grid0.Coords, EltTy.bits .f32 = 32 ∨ (Rect.block (s := S3x512) S3x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1024.size a ≤ S100000x1024.size a
  hwx0_5 : ∀ i : grid0.Coords, EltTy.bits .f32 = 32 ∨ (Rect.block (s := S100000x1024) S2000x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x3.size a ≤ S100000x3.size a
  hwx1_0 : ∀ i : grid1.Coords, EltTy.bits .f32 = 32 ∨ (Rect.block (s := S100000x3) S2000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x512.size a ≤ S3x512.size a
  hwx1_1 : ∀ i : grid1.Coords, EltTy.bits .f32 = 32 ∨ (Rect.block (s := S3x512) S3x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x1024.size a
  hwx1_3 : ∀ i : grid1.Coords, EltTy.bits .bf16 = 32 ∨ (Rect.block (s := S512x1024) S512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1024.size a ≤ S100000x1024.size a
  hwx1_5 : ∀ i : grid1.Coords, EltTy.bits .f32 = 32 ∨ (Rect.block (s := S100000x1024) S2000x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x3.size a ≤ S100000x3.size a
  hwx2_0 : ∀ i : grid2.Coords, EltTy.bits .f32 = 32 ∨ (Rect.block (s := S100000x3) S2000x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x512.size a ≤ S3x512.size a
  hwx2_1 : ∀ i : grid2.Coords, EltTy.bits .f32 = 32 ∨ (Rect.block (s := S3x512) S3x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S512x1024.size a
  hwx2_3 : ∀ i : grid2.Coords, EltTy.bits .bf16 = 32 ∨ (Rect.block (s := S512x1024) S512x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1024.size a ≤ S100000x1024.size a
  hwx2_5 : ∀ i : grid2.Coords, EltTy.bits .f32 = 32 ∨ (Rect.block (s := S100000x1024) S2000x1024.size (cc2_transform_5 i) (hinb2_5 i)).WholeWords (EltTy.packing .f32)

variable [Facts₀]

def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S3x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2000x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S2000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S3x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S512x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S2000x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x3 : Shape := ⟨2, ![100000, 3]⟩
abbrev S3x512 : Shape := ⟨2, ![3, 512]⟩
abbrev S512 : Shape := ⟨1, ![512]⟩
abbrev S512x1024 : Shape := ⟨2, ![512, 1024]⟩
abbrev S1024 : Shape := ⟨1, ![1024]⟩
abbrev S_ : Shape := ⟨0, ![]⟩
abbrev S100000 : Shape := ⟨1, ![100000]⟩
abbrev S100000x1 : Shape := ⟨2, ![100000, 1]⟩
abbrev S100000x512 : Shape := ⟨2, ![100000, 512]⟩
abbrev S1x512 : Shape := ⟨2, ![1, 512]⟩
abbrev S100000x1024 : Shape := ⟨2, ![100000, 1024]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x3, .f32⟩
  | .hbm, ⟨2, _⟩ => ⟨S100000x3, .f32⟩
  | .hbm, ⟨3, _⟩ => ⟨S3x512, .f32⟩
  | .hbm, ⟨4, _⟩ => ⟨S512, .f32⟩
  | .hbm, ⟨5, _⟩ => ⟨S512x1024, .f32⟩
  | .hbm, ⟨6, _⟩ => ⟨S1024, .f32⟩
  | .hbm, ⟨7, _⟩ => ⟨S100000x3, .f32⟩
  | .hbm, ⟨8, _⟩ => ⟨S_, .f32⟩
  | .hbm, ⟨9, _⟩ => ⟨S100000, .f32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000x1, .f32⟩
  | .hbm, ⟨14, _⟩ => ⟨S100000x1, .f32⟩
  | .hbm, ⟨15, _⟩ => ⟨S100000x1, .f32⟩
  | .hbm, ⟨16, _⟩ => ⟨S100000x3, .f32⟩
  | .hbm, ⟨17, _⟩ => ⟨S100000x512, .f32⟩
  | .hbm, ⟨18, _⟩ => ⟨S1x512, .f32⟩
  | .hbm, ⟨19, _⟩ => ⟨S100000x512, .f32⟩
  | .hbm, ⟨20, _⟩ => ⟨S100000x512, .f32⟩
  | .hbm, ⟨21, _⟩ => ⟨S_, .f32⟩
  | .hbm, ⟨22, _⟩ => ⟨S100000x512, .f32⟩
  | .hbm, ⟨23, _⟩ => ⟨S100000x512, .f32⟩
  | .hbm, ⟨24, _⟩ => ⟨S100000x1024, .f32⟩
  | .hbm, ⟨25, _⟩ => ⟨S1x1024, .f32⟩
  | .hbm, ⟨26, _⟩ => ⟨S100000x1024, .f32⟩
  | .hbm, ⟨27, _⟩ => ⟨S100000x1024, .f32⟩
  | .hbm, ⟨28, _⟩ => ⟨S100000x3, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000x1, .f32⟩
  | .hbm, ⟨35, _⟩ => ⟨S100000x1, .f32⟩
  | .hbm, ⟨36, _⟩ => ⟨S100000x1, .f32⟩
  | .hbm, ⟨37, _⟩ => ⟨S100000x3, .f32⟩
  | .hbm, ⟨38, _⟩ => ⟨S100000x512, .f32⟩
  | .hbm, ⟨39, _⟩ => ⟨S1x512, .f32⟩
  | .hbm, ⟨40, _⟩ => ⟨S100000x512, .f32⟩
  | .hbm, ⟨41, _⟩ => ⟨S100000x512, .f32⟩
  | .hbm, ⟨42, _⟩ => ⟨S_, .f32⟩
  | .hbm, ⟨43, _⟩ => ⟨S100000x512, .f32⟩
  | .hbm, ⟨44, _⟩ => ⟨S100000x512, .f32⟩
  | .hbm, ⟨45, _⟩ => ⟨S100000x1024, .f32⟩
  | .hbm, ⟨46, _⟩ => ⟨S1x1024, .f32⟩
  | .hbm, ⟨47, _⟩ => ⟨S100000x1024, .f32⟩
  | .hbm, ⟨48, _⟩ => ⟨S100000x1024, .f32⟩
  | .hbm, ⟨49, _⟩ => ⟨S100000x3, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S100000x1, .f32⟩
  | .hbm, ⟨57, _⟩ => ⟨S100000x1, .f32⟩
  | .hbm, ⟨58, _⟩ => ⟨S100000x3, .f32⟩
  | .hbm, ⟨59, _⟩ => ⟨S100000x512, .f32⟩
  | .hbm, ⟨60, _⟩ => ⟨S1x512, .f32⟩
  | .hbm, ⟨61, _⟩ => ⟨S100000x512, .f32⟩
  | .hbm, ⟨62, _⟩ => ⟨S100000x512, .f32⟩
  | .hbm, ⟨63, _⟩ => ⟨S_, .f32⟩
  | .hbm, ⟨64, _⟩ => ⟨S100000x512, .f32⟩
  | .hbm, ⟨65, _⟩ => ⟨S100000x512, .f32⟩
  | .hbm, ⟨66, _⟩ => ⟨S100000x1024, .f32⟩
  | .hbm, ⟨67, _⟩ => ⟨S1x1024, .f32⟩
  | .hbm, ⟨68, _⟩ => ⟨S100000x1024, .f32⟩
  | .hbm, ⟨69, _⟩ => ⟨S100000x1024, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_cst : Ref sig .tc := ⟨.hbm, 42, rfl⟩
abbrev main_call1_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call2_cst : Ref sig .tc := ⟨.hbm, 63, rfl⟩
abbrev main_call2_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  reducesTo_S100000x3_S100000_d1 : S100000x3.ReducesTo [1] S100000
  h_S_ : 0 < S_.numel
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  dot_S100000x3_S3x512_S100000x512_1_0_0_1_n_n_wf : DotDims.WF S100000x3 S3x512 S100000x512 [1] [0] [0] [1] [] []
  dot_S100000x512_S512x1024_S100000x1024_1_0_0_1_n_n_wf : DotDims.WF S100000x512 S512x1024 S100000x1024 [1] [0] [0] [1] [] []

variable [Facts₀]

def dot_S100000x3_S3x512_S100000x512_1_0_0_1_n_n : DotDims S100000x3 S3x512 S100000x512 where
  lhsContracting := [1]
  rhsContracting := [0]
  lhsNonContracting := [0]
  rhsNonContracting := [1]
  lhsBatch := []
  rhsBatch := []
  wf := dot_S100000x3_S3x512_S100000x512_1_0_0_1_n_n_wf
def dot_S100000x512_S512x1024_S100000x1024_1_0_0_1_n_n : DotDims S100000x512 S512x1024 S100000x1024 where
  lhsContracting := [1]
  rhsContracting := [0]
  lhsNonContracting := [0]
  rhsNonContracting := [1]
  lhsBatch := []
  rhsBatch := []
  wf := dot_S100000x512_S512x1024_S100000x1024_1_0_0_1_n_n_wf

class Facts : Prop extends Facts₀ where

variable [Facts]
-- ==== Proof.Spec.lean ====
/-
  The function both programs compute, stated once, with no program in sight.

  For one row of positions `P : Fin 3 → EReal` the geometric features are
      feat P = (√(Σ_d P_d²), Σ_d P_d, Σ_d P_d²),
  the hidden unit `k` of the first layer is  max (Σ_q feat P q · w1[q,k] + b1[k]) 0,  and the output entry `(n, j)` is
      Σ_k hidden(n, k) · w2[k, j] + b2[j].
  The only law needed to join the two programs is that a sum over `Fin 3` is its three terms added left to right,
  which holds in any additive monoid: no finiteness of the inputs is used.
-/
import Idealize.ShloMosaic.PureOps.Ideal
import Idealize.ShloMosaic.Lib.ValueIdx

noncomputable section

namespace Cert.Spec

open Idealize.ShloMosaic Idealize.ShloMosaic.ValueIdx
open scoped BigOperators

/-- The three geometric features of a row: its Euclidean norm, the sum of its entries, the sum of their squares. -/
def feat (P : Fin 3 → EReal) : Fin 3 → EReal :=
  ![Ideal.sqrt (∑ d : Fin 3, P d * P d), ∑ d : Fin 3, P d, ∑ d : Fin 3, P d * P d]

/-- One hidden unit: the features against one column `A` of the first weight matrix, plus the bias, rectified. -/
def hid (P : Fin 3 → EReal) (A : Fin 3 → EReal) (b : EReal) : EReal :=
  max ((∑ q : Fin 3, feat P q * A q) + b) 0

/-- The feature product spelt as three multiply-adds, left to right. -/
theorem hid_eq (P : Fin 3 → EReal) (A : Fin 3 → EReal) (b : EReal) :
    hid P A b = max (((Ideal.sqrt (∑ d : Fin 3, P d * P d) * A 0 + (∑ d : Fin 3, P d) * A 1)
      + (∑ d : Fin 3, P d * P d) * A 2) + b) 0 := by
  unfold hid feat
  rw [Fin.sum_univ_three]
  rfl

/-- One output entry: the hidden row against one column `C` of the second weight matrix, plus the bias. -/
def out (P : Fin 3 → EReal) (A : Fin 3 → Fin 512 → EReal) (B : Fin 512 → EReal) (C : Fin 512 → EReal) (b : EReal) : EReal :=
  (∑ k : Fin 512, hid P (fun q => A q k) (B k) * C k) + b

/-- The whole result array of one position array, index by index. -/
def G (pos : FVec Ideal ⟨2, ![100000, 3]⟩ .f32) (w1 : FVec Ideal ⟨2, ![3, 512]⟩ .f32) (b1 : FVec Ideal ⟨1, ![512]⟩ .f32)
    (w2 : FVec Ideal ⟨2, ![512, 1024]⟩ .f32) (b2 : FVec Ideal ⟨1, ![1024]⟩ .f32) : FVec Ideal ⟨2, ![100000, 1024]⟩ .f32 :=
  fun j => out (fun d => pos (ix2 (j 0) d)) (fun q k => w1 (ix2 q k)) (fun k => b1 (ix1 k)) (fun k => w2 (ix2 k (j 1))) (b2 (ix1 (j 1)))

end Cert.Spec

end
-- ==== Proof.KernelRun.lean ====
/-
  The idealized kernel's run, with every buffer named at its end.

  The program is a short stretch of host operations (two reshapes and a change of format) followed by three launches of
  one body over 50 grid points each. Its run passes through five boundaries; at the last one every buffer that is not
  scoped to a launch holds the contents `W4`: a launch's arrays at what its write-backs leave, everything else as the
  launch found it. Here that run is stated with the final memory read at `W4` on every such buffer, the results included,
  rather than on the arguments alone.
-/
import proofs.«154643_j88622355186348_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in the final state every buffer not scoped to a launch
    holds the last boundary's contents. -/
theorem run_W4 : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.RunValue

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.Payload.lean ====
/-
  What one grid point computes, read at an index.

  A block is 2000 consecutive rows of the position array. For row `p` of the block and output column `q` the body's
  stored value is  Σ_k hidden(p, k) · w2[k, q] + b2[q],  where hidden(p, k) is the rectified sum of the three features of
  row `p` (norm, sum, sum of squares — each a sum along the row's three entries) against column `k` of w1, plus b1[k].
  The body spells the feature product as three multiply-adds over broadcast columns and rows; the rounding to the
  narrow format before the product is the identity on extended reals, and the product into a zero accumulator is the
  plain sum over the contracted axis.
-/
import proofs.«154643_j88622355186348_2_alg».proof.Proof.Gen.KernelIdeal.Skeleton
import proofs.«154643_j88622355186348_2_alg».proof.Proof.Spec
import proofs.«154643_j88622355186348_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Lib.Keepdims
open scoped BigOperators

/-- A one-row slice of the first weight matrix, starting at row `a`, read at column `k`, is the matrix's entry `(a, k)`. -/
theorem w1_row_apply (x1 : FVec Ideal S3x512 .f32) (off : Fin S3x512.rank → Nat) (h : S3x512.Slices off S1x512)
    (a : Fin 3) (h0 : off 0 = a.val) (h1 : off 1 = 0) (k : Fin 512) :
    extractStridedSlice S1x512 off x1 h (ix2 (0 : Fin 1) k) = x1 (ix2 a k) :=
  extractStridedSlice_apply off x1 h _ _ (fun ax => by
    match ax with
    | ⟨0, _⟩ => show a.val = off 0 + 0; omega
    | ⟨1, _⟩ => show k.val = off 1 + k.val; omega)

/-! The operand indices of the block's matrix product at output index `j` and contraction index `κ`: the left operand is
    read at `(j₀, κ)`, the right at `(κ, j₁)`. -/
theorem dot_lhs_0 (j : S2000x1024.Idx) (κ : dot_S2000x512_S512x1024_S2000x1024_1_0_0_1_n_n.contr.Idx) :
    (dot_S2000x512_S512x1024_S2000x1024_1_0_0_1_n_n.lhsIdx j κ 0).val = (j 0).val := by
  unfold DotDims.lhsIdx
  rw [dif_neg (show ¬(0 : Fin S2000x512.rank) ∈ dot_S2000x512_S512x1024_S2000x1024_1_0_0_1_n_n.lhsBatch by decide),
    dif_pos (show (0 : Fin S2000x512.rank) ∈ dot_S2000x512_S512x1024_S2000x1024_1_0_0_1_n_n.lhsNonContracting by decide)]
  rfl
theorem dot_lhs_1 (j : S2000x1024.Idx) (κ : dot_S2000x512_S512x1024_S2000x1024_1_0_0_1_n_n.contr.Idx) :
    (dot_S2000x512_S512x1024_S2000x1024_1_0_0_1_n_n.lhsIdx j κ 1).val = (κ ⟨0, by decide⟩).val :=
  dot_S2000x512_S512x1024_S2000x1024_1_0_0_1_n_n.lhsIdx_val_of_single rfl j κ
theorem dot_rhs_0 (j : S2000x1024.Idx) (κ : dot_S2000x512_S512x1024_S2000x1024_1_0_0_1_n_n.contr.Idx) :
    (dot_S2000x512_S512x1024_S2000x1024_1_0_0_1_n_n.rhsIdx j κ 0).val = (κ ⟨0, by decide⟩).val :=
  dot_S2000x512_S512x1024_S2000x1024_1_0_0_1_n_n.rhsIdx_val_of_single rfl j κ
theorem dot_rhs_1 (j : S2000x1024.Idx) (κ : dot_S2000x512_S512x1024_S2000x1024_1_0_0_1_n_n.contr.Idx) :
    (dot_S2000x512_S512x1024_S2000x1024_1_0_0_1_n_n.rhsIdx j κ 1).val = (j 1).val := by
  unfold DotDims.rhsIdx
  rw [dif_neg (show ¬(1 : Fin S512x1024.rank) ∈ dot_S2000x512_S512x1024_S2000x1024_1_0_0_1_n_n.rhsBatch by decide),
    dif_pos (show (1 : Fin S512x1024.rank) ∈ dot_S2000x512_S512x1024_S2000x1024_1_0_0_1_n_n.rhsNonContracting by decide)]
  rfl

/-- The block's matrix product into a zero accumulator, at `(p, q)`: the sum over the 512 hidden units of the left
    operand's row `p` against the right operand's column `q`. -/
theorem matmul_block_apply (L : FVec Ideal S2000x512 .bf16) (R : FVec Ideal S512x1024 .bf16) (p : Fin 2000) (q : Fin 1024) :
    FloatOps.matmul dot_S2000x512_S512x1024_S2000x1024_1_0_0_1_n_n none L R (constant S2000x1024 .f32 0x00000000#32) (ix2 p q)
      = ∑ k : Fin 512, L (ix2 p k) * R (ix2 k q) := by
  rw [Ideal.matmul_constant_zero_apply,
    ← Equiv.sum_comp (contrEquiv1 dot_S2000x512_S512x1024_S2000x1024_1_0_0_1_n_n 512 rfl rfl).symm]
  refine Finset.sum_congr rfl fun k _ => ?_
  have hk := contrEquiv1_symm_val dot_S2000x512_S512x1024_S2000x1024_1_0_0_1_n_n 512 rfl rfl k
  have el : dot_S2000x512_S512x1024_S2000x1024_1_0_0_1_n_n.lhsIdx (ix2 p q)
      ((contrEquiv1 dot_S2000x512_S512x1024_S2000x1024_1_0_0_1_n_n 512 rfl rfl).symm k) = ix2 p k :=
    funext fun a => Fin.ext (by
      match a with
      | ⟨0, _⟩ => exact dot_lhs_0 _ _
      | ⟨1, _⟩ => exact (dot_lhs_1 _ _).trans hk)
  have er : dot_S2000x512_S512x1024_S2000x1024_1_0_0_1_n_n.rhsIdx (ix2 p q)
      ((contrEquiv1 dot_S2000x512_S512x1024_S2000x1024_1_0_0_1_n_n 512 rfl rfl).symm k) = ix2 k q :=
    funext fun a => Fin.ext (by
      match a with
      | ⟨0, _⟩ => exact (dot_rhs_0 _ _).trans hk
      | ⟨1, _⟩ => exact dot_rhs_1 _ _)
  rw [el, er]

/-- The sum of a block of rows along their three entries, at row `p`. -/
theorem rowSum_block (src : FVec Ideal S2000x3 .f32) (hacc : (0x00000000#32 : BitVec 32) = 0x00000000#32) (p : Fin 2000) :
    multiReduction .add [1] S2000 src 0x00000000#32 reduces_S2000x3_S2000 (.inl rfl) hacc (ix1 p) = ∑ d : Fin 3, src (ix2 p d) :=
  rowSum_apply (a := 2000) (b := 3) src 0x00000000#32 reduces_S2000x3_S2000 (.inl rfl) hacc p

/-- The square root of a vector, read at an index. -/
theorem sqrt_apply {s : Shape} {φ : FTy} (a : FVec Ideal s φ) (i : s.Idx) : sqrt a i = Ideal.sqrt (a i) := rfl

/-- The body's stored value at row `p` of the block and column `q`, as the specification's output entry of that row,
    the first-layer weights and bias row, column `q` of the second weight matrix and entry `q` of its bias row. -/
theorem pay_apply (x0 : Vec Ideal S2000x3 .f32) (x1 : Vec Ideal S3x512 .f32) (x2 : Vec Ideal S1x512 .f32)
    (x3 : Vec Ideal S512x1024 .bf16) (x4 : Vec Ideal S1x1024 .f32) (p : Fin 2000) (q : Fin 1024) :
    k0_pay1 (F := Ideal) x0 x1 x2 x3 x4 (ix2 p q)
      = Spec.out (fun d => x0 (ix2 p d)) (fun a k => x1 (ix2 a k)) (fun k => x2 (ix2 (0 : Fin 1) k))
          (fun k => x3 (ix2 k q)) (x4 (ix2 (0 : Fin 1) q)) := by
  unfold k0_pay1 Spec.out
  simp only [addf_apply, matmul, matmul_block_apply, shapeCast_self, broadcastTo_1b_ab_apply]
  refine congrArg (· + x4 (ix2 (0 : Fin 1) q)) (Finset.sum_congr rfl fun k _ => ?_)
  refine congrArg (· * x3 (ix2 k q)) ?_
  rw [Spec.hid_eq]
  simp only [truncf_apply, maximumf_apply, addf_apply, mulf_apply, broadcast_apply, sqrt_apply,
    broadcastTo_a1_ab_apply, broadcastTo_1b_ab_apply, shapeCast_a_a1_apply, rowSum_apply]
  rw [w1_row_apply x1 ![0, 0] _ 0 rfl rfl k, w1_row_apply x1 ![1, 0] _ 1 rfl rfl k, w1_row_apply x1 ![2, 0] _ 2 rfl rfl k]
  simp only [Ideal.ofBits_def, Ideal.ofBits_zero_f32]
  exact congrArg (fun z => max z 0) (congrArg₂ (· + ·) (congrArg₂ (· + ·) (congrArg₂ (· + ·)
    (congrArg (· * x1 (ix2 0 k)) (congrArg Ideal.sqrt (rowSum_block (mulf x0 x0) _ p)))
    (congrArg (· * x1 (ix2 1 k)) (rowSum_block x0 _ p)))
    (congrArg (· * x1 (ix2 2 k)) (rowSum_block (mulf x0 x0) _ p))) rfl)

/-- The second and third launches run the same body: their stored values are the same function of their blocks. -/
theorem pay_apply1 (x0 : Vec Ideal S2000x3 .f32) (x1 : Vec Ideal S3x512 .f32) (x2 : Vec Ideal S1x512 .f32)
    (x3 : Vec Ideal S512x1024 .bf16) (x4 : Vec Ideal S1x1024 .f32) (p : Fin 2000) (q : Fin 1024) :
    k1_pay1 (F := Ideal) x0 x1 x2 x3 x4 (ix2 p q)
      = Spec.out (fun d => x0 (ix2 p d)) (fun a k => x1 (ix2 a k)) (fun k => x2 (ix2 (0 : Fin 1) k))
          (fun k => x3 (ix2 k q)) (x4 (ix2 (0 : Fin 1) q)) :=
  pay_apply x0 x1 x2 x3 x4 p q
theorem pay_apply2 (x0 : Vec Ideal S2000x3 .f32) (x1 : Vec Ideal S3x512 .f32) (x2 : Vec Ideal S1x512 .f32)
    (x3 : Vec Ideal S512x1024 .bf16) (x4 : Vec Ideal S1x1024 .f32) (p : Fin 2000) (q : Fin 1024) :
    k2_pay1 (F := Ideal) x0 x1 x2 x3 x4 (ix2 p q)
      = Spec.out (fun d => x0 (ix2 p d)) (fun a k => x1 (ix2 a k)) (fun k => x2 (ix2 (0 : Fin 1) k))
          (fun k => x3 (ix2 k q)) (x4 (ix2 (0 : Fin 1) q)) :=
  pay_apply x0 x1 x2 x3 x4 p q

end Cert.KernelIdeal.Body

end
-- ==== Proof.Blocks.lean ====
/-
  From blocks to the whole array, for each of the three launches.

  A launch walks 50 grid points; point `t` reads rows 2000·t … 2000·t + 1999 of its position array and the whole of
  the four parameter arrays, and writes back rows 2000·t … 2000·t + 1999 of its output. What it writes is, entry by
  entry, the specification's output entry of the corresponding global row. The 50 row blocks cover the output, so after
  the launch the output array is one function `GK` of the five arrays the launch was given — whatever those arrays
  hold when the launch starts.
-/
import proofs.«154643_j88622355186348_2_alg».proof.Proof.Gen.KernelIdeal.Frame
import proofs.«154643_j88622355186348_2_alg».proof.Proof.Payload
import Idealize.ShloMosaic.Lib.Pipeline.Value

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- What a launch leaves in its output array, as a function of the position array, the first weight matrix, the first
    bias as a row, the second weight matrix (in the narrow format) and the second bias as a row. -/
def GK (pos : FVec Ideal S100000x3 .f32) (w1 : FVec Ideal S3x512 .f32) (b1r : FVec Ideal S1x512 .f32)
    (w2b : FVec Ideal S512x1024 .bf16) (b2r : FVec Ideal S1x1024 .f32) : FVec Ideal S100000x1024 .f32 :=
  fun j => Spec.out (fun d => pos (ix2 (j 0) d)) (fun a k => w1 (ix2 a k)) (fun k => b1r (ix2 (0 : Fin 1) k))
    (fun k => w2b (ix2 k (j 1))) (b2r (ix2 (0 : Fin 1) (j 1)))

/-! ## Launch 0 -/

/-- The index maps of launch 0, decided over its 50 points: the position and output windows move one row block per
    point, the parameter windows stay at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` of launch 0 writes back is block `t` of `GK` of the arrays as the launch finds them. -/
theorem flushed0_eq (c : Dev nD) (t : Fin cfg0.N) :
    (dat0 V c).flushed 5 t = ((cfg0.win 5).blk t).view.read (Elt Ideal)
      (GK (V c main_arg0) (V c main_arg3) (V c main_v0) (V c main_v2) (V c main_v1)) := by
  show (cfg0.win 5).cut (grid0.coords t) ((dat0 V c).after 5 t) = _
  rw [after0_5]
  unfold out0_5
  rw [View.canon_unit_zero hz]
  simp only [View.ld_unit_zero (S := S2000x3) hz, View.ld_unit_zero (S := S3x512) hz, View.ld_unit_zero (S := S1x512) hz,
    View.ld_unit_zero (S := S512x1024) hz, View.ld_unit_zero (S := S1x1024) hz]
  obtain ⟨e00, e01, e10, e11, e20, e21, e30, e31, e40, e41, e50, e51⟩ := idx_facts0 t
  funext y
  obtain ⟨p, q, rfl⟩ : ∃ (p : Fin 2000) (q : Fin 1024), y = ix2 p q := ⟨y 0, y 1, eq_ix2 y⟩
  show k0_pay1 (iblk0 V c 0 t) (iblk0 V c 1 t) (iblk0 V c 2 t) (iblk0 V c 3 t) (iblk0 V c 4 t) (ix2 p q)
    = GK (V c main_arg0) (V c main_arg3) (V c main_v0) (V c main_v2) (V c main_v1) (((cfg0.win 5).blk t).view.emb (ix2 p q))
  refine (pay_apply _ _ _ _ _ p q).trans ?_
  unfold GK
  -- each input block, read at a block index, is its array at the matching global index
  have hb0 : ∀ d : Fin 3, iblk0 V c 0 t (ix2 p d)
      = V c main_arg0 (ix2 ((((cfg0.win 5).blk t).view.emb (ix2 p q)) 0) d) := fun d => by
    show V c main_arg0 (((cfg0.win 0).blk t).view.emb (ix2 p d)) = _
    refine congrArg (V c main_arg0) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 3 + 1 * d.val = d.val; omega
  have hb1 : ∀ (a : Fin 3) (k : Fin 512), iblk0 V c 1 t (ix2 a k) = V c main_arg3 (ix2 a k) := fun a k => by
    show V c main_arg3 (((cfg0.win 1).blk t).view.emb (ix2 a k)) = _
    refine congrArg (V c main_arg3) (funext fun b => Fin.ext ?_)
    match b with
    | ⟨0, _⟩ => show win0_1.index t (0 : Fin 2) * 3 + 1 * a.val = a.val; omega
    | ⟨1, _⟩ => show win0_1.index t (1 : Fin 2) * 512 + 1 * k.val = k.val; omega
  have hb2 : ∀ k : Fin 512, iblk0 V c 2 t (ix2 (0 : Fin 1) k) = V c main_v0 (ix2 (0 : Fin 1) k) := fun k => by
    show V c main_v0 (((cfg0.win 2).blk t).view.emb (ix2 (0 : Fin 1) k)) = _
    refine congrArg (V c main_v0) (funext fun b => Fin.ext ?_)
    match b with
    | ⟨0, _⟩ => show win0_2.index t (0 : Fin 2) * 1 + 1 * 0 = 0; omega
    | ⟨1, _⟩ => show win0_2.index t (1 : Fin 2) * 512 + 1 * k.val = k.val; omega
  have hb3 : ∀ k : Fin 512, iblk0 V c 3 t (ix2 k q)
      = V c main_v2 (ix2 k ((((cfg0.win 5).blk t).view.emb (ix2 p q)) 1)) := fun k => by
    show V c main_v2 (((cfg0.win 3).blk t).view.emb (ix2 k q)) = _
    refine congrArg (V c main_v2) (funext fun b => Fin.ext ?_)
    match b with
    | ⟨0, _⟩ => show win0_3.index t (0 : Fin 2) * 512 + 1 * k.val = k.val; omega
    | ⟨1, _⟩ => show win0_3.index t (1 : Fin 2) * 1024 + 1 * q.val = win0_5.index t (1 : Fin 2) * 1024 + 1 * q.val; omega
  have hb4 : iblk0 V c 4 t (ix2 (0 : Fin 1) q)
      = V c main_v1 (ix2 (0 : Fin 1) ((((cfg0.win 5).blk t).view.emb (ix2 p q)) 1)) := by
    show V c main_v1 (((cfg0.win 4).blk t).view.emb (ix2 (0 : Fin 1) q)) = _
    refine congrArg (V c main_v1) (funext fun b => Fin.ext ?_)
    match b with
    | ⟨0, _⟩ => show win0_4.index t (0 : Fin 2) * 1 + 1 * 0 = 0; omega
    | ⟨1, _⟩ => show win0_4.index t (1 : Fin 2) * 1024 + 1 * q.val = win0_5.index t (1 : Fin 2) * 1024 + 1 * q.val; omega
  exact congr (congr (congr (congr (congrArg Spec.out (funext hb0)) (funext fun a => funext fun k => hb1 a k)) (funext hb2))
    (funext hb3)) hb4

/-- An index of the output array is in point `t`'s block iff each coordinate is in the block's range on its axis. -/
theorem mem_blk0 (t : Fin cfg0.N) (i : S100000x1024.Idx) :
    i ∈ ((cfg0.win 5).blk t).view.set ↔ ∀ a : Fin 2, win0_5.index t a * S2000x1024.size a ≤ (i a).val
      ∧ (i a).val < win0_5.index t a * S2000x1024.size a + S2000x1024.size a := by
  show i ∈ ((View.whole main_v3).slice (win0_5.rect t)).set ↔ _
  rw [View.set_slice_whole, Rect.mem_set_unit]
  exact Iff.rfl

/-- Every index of the output array lies in the block of the point its row number over 2000 names. -/
theorem cover0 (i : S100000x1024.Idx) :
    ∃ t : Fin cfg0.N, (cfg0.win 5).flush t = true ∧ i ∈ ((cfg0.win 5).blk t).view.set := by
  have hi0 : (i 0).val < 100000 := (i 0).isLt
  have hi1 : (i 1).val < 1024 := (i 1).isLt
  have hN : grid0.N = 50 := N_0
  have ht : (i 0).val / 2000 < grid0.N := by rw [hN]; omega
  obtain ⟨-, -, -, -, -, -, -, -, -, -, e50, e51⟩ := idx_facts0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, ht⟩ (1 : Fin 2) * 1024 ≤ (i 1).val
      ∧ (i 1).val < win0_5.index ⟨(i 0).val / 2000, ht⟩ (1 : Fin 2) * 1024 + 1024
    omega

/-- After launch 0 its output array is `GK` of the arrays as the launch found them. -/
theorem final0 (c : Dev nD) : (dat0 V c).arrAt 5 cfg0.N
    = GK (V c main_arg0) (V c main_arg3) (V c main_v0) (V c main_v2) (V c main_v1) :=
  (dat0 V c).arrAt_eq_of_cover 5 _ (fun t _ => flushed0_eq V c t) (cover0)

/-! ## Launch 1 -/

/-- The index maps of launch 1, decided over its 50 points: the position and output windows move one row block per
    point, the parameter windows stay at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` of launch 1 writes back is block `t` of `GK` of the arrays as the launch finds them. -/
theorem flushed1_eq (c : Dev nD) (t : Fin cfg1.N) :
    (dat1 V c).flushed 5 t = ((cfg1.win 5).blk t).view.read (Elt Ideal)
      (GK (V c main_arg1) (V c main_arg3) (V c main_v0) (V c main_v2) (V c main_v1)) := by
  show (cfg1.win 5).cut (grid1.coords t) ((dat1 V c).after 5 t) = _
  rw [after1_5]
  unfold out1_5
  rw [View.canon_unit_zero hz]
  simp only [View.ld_unit_zero (S := S2000x3) hz, View.ld_unit_zero (S := S3x512) hz, View.ld_unit_zero (S := S1x512) hz,
    View.ld_unit_zero (S := S512x1024) hz, View.ld_unit_zero (S := S1x1024) hz]
  obtain ⟨e00, e01, e10, e11, e20, e21, e30, e31, e40, e41, e50, e51⟩ := idx_facts1 t
  funext y
  obtain ⟨p, q, rfl⟩ : ∃ (p : Fin 2000) (q : Fin 1024), y = ix2 p q := ⟨y 0, y 1, eq_ix2 y⟩
  show k1_pay1 (iblk1 V c 0 t) (iblk1 V c 1 t) (iblk1 V c 2 t) (iblk1 V c 3 t) (iblk1 V c 4 t) (ix2 p q)
    = GK (V c main_arg1) (V c main_arg3) (V c main_v0) (V c main_v2) (V c main_v1) (((cfg1.win 5).blk t).view.emb (ix2 p q))
  refine (pay_apply1 _ _ _ _ _ p q).trans ?_
  unfold GK
  -- each input block, read at a block index, is its array at the matching global index
  have hb0 : ∀ d : Fin 3, iblk1 V c 0 t (ix2 p d)
      = V c main_arg1 (ix2 ((((cfg1.win 5).blk t).view.emb (ix2 p q)) 0) d) := fun d => by
    show V c main_arg1 (((cfg1.win 0).blk t).view.emb (ix2 p d)) = _
    refine congrArg (V c main_arg1) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 3 + 1 * d.val = d.val; omega
  have hb1 : ∀ (a : Fin 3) (k : Fin 512), iblk1 V c 1 t (ix2 a k) = V c main_arg3 (ix2 a k) := fun a k => by
    show V c main_arg3 (((cfg1.win 1).blk t).view.emb (ix2 a k)) = _
    refine congrArg (V c main_arg3) (funext fun b => Fin.ext ?_)
    match b with
    | ⟨0, _⟩ => show win1_1.index t (0 : Fin 2) * 3 + 1 * a.val = a.val; omega
    | ⟨1, _⟩ => show win1_1.index t (1 : Fin 2) * 512 + 1 * k.val = k.val; omega
  have hb2 : ∀ k : Fin 512, iblk1 V c 2 t (ix2 (0 : Fin 1) k) = V c main_v0 (ix2 (0 : Fin 1) k) := fun k => by
    show V c main_v0 (((cfg1.win 2).blk t).view.emb (ix2 (0 : Fin 1) k)) = _
    refine congrArg (V c main_v0) (funext fun b => Fin.ext ?_)
    match b with
    | ⟨0, _⟩ => show win1_2.index t (0 : Fin 2) * 1 + 1 * 0 = 0; omega
    | ⟨1, _⟩ => show win1_2.index t (1 : Fin 2) * 512 + 1 * k.val = k.val; omega
  have hb3 : ∀ k : Fin 512, iblk1 V c 3 t (ix2 k q)
      = V c main_v2 (ix2 k ((((cfg1.win 5).blk t).view.emb (ix2 p q)) 1)) := fun k => by
    show V c main_v2 (((cfg1.win 3).blk t).view.emb (ix2 k q)) = _
    refine congrArg (V c main_v2) (funext fun b => Fin.ext ?_)
    match b with
    | ⟨0, _⟩ => show win1_3.index t (0 : Fin 2) * 512 + 1 * k.val = k.val; omega
    | ⟨1, _⟩ => show win1_3.index t (1 : Fin 2) * 1024 + 1 * q.val = win1_5.index t (1 : Fin 2) * 1024 + 1 * q.val; omega
  have hb4 : iblk1 V c 4 t (ix2 (0 : Fin 1) q)
      = V c main_v1 (ix2 (0 : Fin 1) ((((cfg1.win 5).blk t).view.emb (ix2 p q)) 1)) := by
    show V c main_v1 (((cfg1.win 4).blk t).view.emb (ix2 (0 : Fin 1) q)) = _
    refine congrArg (V c main_v1) (funext fun b => Fin.ext ?_)
    match b with
    | ⟨0, _⟩ => show win1_4.index t (0 : Fin 2) * 1 + 1 * 0 = 0; omega
    | ⟨1, _⟩ => show win1_4.index t (1 : Fin 2) * 1024 + 1 * q.val = win1_5.index t (1 : Fin 2) * 1024 + 1 * q.val; omega
  exact congr (congr (congr (congr (congrArg Spec.out (funext hb0)) (funext fun a => funext fun k => hb1 a k)) (funext hb2))
    (funext hb3)) hb4

/-- An index of the output array is in point `t`'s block iff each coordinate is in the block's range on its axis. -/
theorem mem_blk1 (t : Fin cfg1.N) (i : S100000x1024.Idx) :
    i ∈ ((cfg1.win 5).blk t).view.set ↔ ∀ a : Fin 2, win1_5.index t a * S2000x1024.size a ≤ (i a).val
      ∧ (i a).val < win1_5.index t a * S2000x1024.size a + S2000x1024.size a := by
  show i ∈ ((View.whole main_v4).slice (win1_5.rect t)).set ↔ _
  rw [View.set_slice_whole, Rect.mem_set_unit]
  exact Iff.rfl

/-- Every index of the output array lies in the block of the point its row number over 2000 names. -/
theorem cover1 (i : S100000x1024.Idx) :
    ∃ t : Fin cfg1.N, (cfg1.win 5).flush t = true ∧ i ∈ ((cfg1.win 5).blk t).view.set := by
  have hi0 : (i 0).val < 100000 := (i 0).isLt
  have hi1 : (i 1).val < 1024 := (i 1).isLt
  have hN : grid1.N = 50 := N_1
  have ht : (i 0).val / 2000 < grid1.N := by rw [hN]; omega
  obtain ⟨-, -, -, -, -, -, -, -, -, -, e50, e51⟩ := idx_facts1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, ht⟩ (1 : Fin 2) * 1024 ≤ (i 1).val
      ∧ (i 1).val < win1_5.index ⟨(i 0).val / 2000, ht⟩ (1 : Fin 2) * 1024 + 1024
    omega

/-- After launch 1 its output array is `GK` of the arrays as the launch found them. -/
theorem final1 (c : Dev nD) : (dat1 V c).arrAt 5 cfg1.N
    = GK (V c main_arg1) (V c main_arg3) (V c main_v0) (V c main_v2) (V c main_v1) :=
  (dat1 V c).arrAt_eq_of_cover 5 _ (fun t _ => flushed1_eq V c t) (cover1)

/-! ## Launch 2 -/

/-- The index maps of launch 2, decided over its 50 points: the position and output windows move one row block per
    point, the parameter windows stay at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` of launch 2 writes back is block `t` of `GK` of the arrays as the launch finds them. -/
theorem flushed2_eq (c : Dev nD) (t : Fin cfg2.N) :
    (dat2 V c).flushed 5 t = ((cfg2.win 5).blk t).view.read (Elt Ideal)
      (GK (V c main_arg2) (V c main_arg3) (V c main_v0) (V c main_v2) (V c main_v1)) := by
  show (cfg2.win 5).cut (grid2.coords t) ((dat2 V c).after 5 t) = _
  rw [after2_5]
  unfold out2_5
  rw [View.canon_unit_zero hz]
  simp only [View.ld_unit_zero (S := S2000x3) hz, View.ld_unit_zero (S := S3x512) hz, View.ld_unit_zero (S := S1x512) hz,
    View.ld_unit_zero (S := S512x1024) hz, View.ld_unit_zero (S := S1x1024) hz]
  obtain ⟨e00, e01, e10, e11, e20, e21, e30, e31, e40, e41, e50, e51⟩ := idx_facts2 t
  funext y
  obtain ⟨p, q, rfl⟩ : ∃ (p : Fin 2000) (q : Fin 1024), y = ix2 p q := ⟨y 0, y 1, eq_ix2 y⟩
  show k2_pay1 (iblk2 V c 0 t) (iblk2 V c 1 t) (iblk2 V c 2 t) (iblk2 V c 3 t) (iblk2 V c 4 t) (ix2 p q)
    = GK (V c main_arg2) (V c main_arg3) (V c main_v0) (V c main_v2) (V c main_v1) (((cfg2.win 5).blk t).view.emb (ix2 p q))
  refine (pay_apply2 _ _ _ _ _ p q).trans ?_
  unfold GK
  -- each input block, read at a block index, is its array at the matching global index
  have hb0 : ∀ d : Fin 3, iblk2 V c 0 t (ix2 p d)
      = V c main_arg2 (ix2 ((((cfg2.win 5).blk t).view.emb (ix2 p q)) 0) d) := fun d => by
    show V c main_arg2 (((cfg2.win 0).blk t).view.emb (ix2 p d)) = _
    refine congrArg (V c main_arg2) (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 3 + 1 * d.val = d.val; omega
  have hb1 : ∀ (a : Fin 3) (k : Fin 512), iblk2 V c 1 t (ix2 a k) = V c main_arg3 (ix2 a k) := fun a k => by
    show V c main_arg3 (((cfg2.win 1).blk t).view.emb (ix2 a k)) = _
    refine congrArg (V c main_arg3) (funext fun b => Fin.ext ?_)
    match b with
    | ⟨0, _⟩ => show win2_1.index t (0 : Fin 2) * 3 + 1 * a.val = a.val; omega
    | ⟨1, _⟩ => show win2_1.index t (1 : Fin 2) * 512 + 1 * k.val = k.val; omega
  have hb2 : ∀ k : Fin 512, iblk2 V c 2 t (ix2 (0 : Fin 1) k) = V c main_v0 (ix2 (0 : Fin 1) k) := fun k => by
    show V c main_v0 (((cfg2.win 2).blk t).view.emb (ix2 (0 : Fin 1) k)) = _
    refine congrArg (V c main_v0) (funext fun b => Fin.ext ?_)
    match b with
    | ⟨0, _⟩ => show win2_2.index t (0 : Fin 2) * 1 + 1 * 0 = 0; omega
    | ⟨1, _⟩ => show win2_2.index t (1 : Fin 2) * 512 + 1 * k.val = k.val; omega
  have hb3 : ∀ k : Fin 512, iblk2 V c 3 t (ix2 k q)
      = V c main_v2 (ix2 k ((((cfg2.win 5).blk t).view.emb (ix2 p q)) 1)) := fun k => by
    show V c main_v2 (((cfg2.win 3).blk t).view.emb (ix2 k q)) = _
    refine congrArg (V c main_v2) (funext fun b => Fin.ext ?_)
    match b with
    | ⟨0, _⟩ => show win2_3.index t (0 : Fin 2) * 512 + 1 * k.val = k.val; omega
    | ⟨1, _⟩ => show win2_3.index t (1 : Fin 2) * 1024 + 1 * q.val = win2_5.index t (1 : Fin 2) * 1024 + 1 * q.val; omega
  have hb4 : iblk2 V c 4 t (ix2 (0 : Fin 1) q)
      = V c main_v1 (ix2 (0 : Fin 1) ((((cfg2.win 5).blk t).view.emb (ix2 p q)) 1)) := by
    show V c main_v1 (((cfg2.win 4).blk t).view.emb (ix2 (0 : Fin 1) q)) = _
    refine congrArg (V c main_v1) (funext fun b => Fin.ext ?_)
    match b with
    | ⟨0, _⟩ => show win2_4.index t (0 : Fin 2) * 1 + 1 * 0 = 0; omega
    | ⟨1, _⟩ => show win2_4.index t (1 : Fin 2) * 1024 + 1 * q.val = win2_5.index t (1 : Fin 2) * 1024 + 1 * q.val; omega
  exact congr (congr (congr (congr (congrArg Spec.out (funext hb0)) (funext fun a => funext fun k => hb1 a k)) (funext hb2))
    (funext hb3)) hb4

/-- An index of the output array is in point `t`'s block iff each coordinate is in the block's range on its axis. -/
theorem mem_blk2 (t : Fin cfg2.N) (i : S100000x1024.Idx) :
    i ∈ ((cfg2.win 5).blk t).view.set ↔ ∀ a : Fin 2, win2_5.index t a * S2000x1024.size a ≤ (i a).val
      ∧ (i a).val < win2_5.index t a * S2000x1024.size a + S2000x1024.size a := by
  show i ∈ ((View.whole main_v5).slice (win2_5.rect t)).set ↔ _
  rw [View.set_slice_whole, Rect.mem_set_unit]
  exact Iff.rfl

/-- Every index of the output array lies in the block of the point its row number over 2000 names. -/
theorem cover2 (i : S100000x1024.Idx) :
    ∃ t : Fin cfg2.N, (cfg2.win 5).flush t = true ∧ i ∈ ((cfg2.win 5).blk t).view.set := by
  have hi0 : (i 0).val < 100000 := (i 0).isLt
  have hi1 : (i 1).val < 1024 := (i 1).isLt
  have hN : grid2.N = 50 := N_2
  have ht : (i 0).val / 2000 < grid2.N := by rw [hN]; omega
  obtain ⟨-, -, -, -, -, -, -, -, -, -, e50, e51⟩ := idx_facts2 ⟨(i 0).val / 2000, ht⟩
  refine ⟨⟨(i 0).val / 2000, ht⟩, flush2_5 _, ?_⟩
  rw [mem_blk2]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win2_5.index ⟨(i 0).val / 2000, ht⟩ (1 : Fin 2) * 1024 ≤ (i 1).val
      ∧ (i 1).val < win2_5.index ⟨(i 0).val / 2000, ht⟩ (1 : Fin 2) * 1024 + 1024
    omega

/-- After launch 2 its output array is `GK` of the arrays as the launch found them. -/
theorem final2 (c : Dev nD) : (dat2 V c).arrAt 5 cfg2.N
    = GK (V c main_arg2) (V c main_arg3) (V c main_v0) (V c main_v2) (V c main_v1) :=
  (dat2 V c).arrAt_eq_of_cover 5 _ (fun t _ => flushed2_eq V c t) (cover2)

end Cert.KernelIdeal.Blocks

end
-- ==== Proof.KernelValue.lean ====
/-
  The idealized kernel's three results as the specification's function of the arguments.

  Before the launches the host reshapes each bias vector to a one-row matrix and changes the second weight matrix to the
  narrow format (the identity on extended reals). No launch writes any array another launch reads: each launch's inputs
  are still what the host stretch left, and each result array is written by exactly one launch and untouched afterwards.
  So result `i` is `GK` of position array `i` and the four prepared parameter arrays, which is the specification's `G` of
  position array `i` and the four parameter arguments.
-/
import proofs.«154643_j88622355186348_2_alg».proof.Proof.Gen.KernelIdeal.Frame
import proofs.«154643_j88622355186348_2_alg».proof.Proof.Blocks
import Idealize.ShloMosaic.Lib.StableHlo.Run
import Idealize.ShloMosaic.Lib.ValueLayout

set_option maxRecDepth 16384

noncomputable section

namespace Cert.KernelIdeal.Final

open Cert.KernelIdeal Cert.KernelIdeal.Gen Cert.KernelIdeal.Blocks
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arrays at the first launch's entry -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
/-- The first bias as a row. -/
theorem W1_v0 (c : Dev nD) : (W1 m ρ c (Proc.devRef .tc main_v0) : S1x512.Idx → EReal)
    = shapeCast S1x512 (m ((c : Thread nD τ).loc main_arg4)) shapeCasts_S512_S1x512 := by
  show StableHlo.after hostOps0 (W0 m ρ c) (Proc.devRef .tc main_v0) = _
  after_results <;> rfl
/-- The second bias as a row. -/
theorem W1_v1 (c : Dev nD) : (W1 m ρ c (Proc.devRef .tc main_v1) : S1x1024.Idx → EReal)
    = shapeCast S1x1024 (m ((c : Thread nD τ).loc main_arg6)) shapeCasts_S1024_S1x1024 := by
  show StableHlo.after hostOps0 (W0 m ρ c) (Proc.devRef .tc main_v1) = _
  after_results <;> rfl
/-- The second weight matrix in the narrow format. -/
theorem W1_v2 (c : Dev nD) : (W1 m ρ c (Proc.devRef .tc main_v2) : S512x1024.Idx → EReal)
    = truncf (F := Ideal) .bf16 (m ((c : Thread nD τ).loc main_arg5)) bitsLt_bf16_f32 := by
  show StableHlo.after hostOps0 (W0 m ρ c) (Proc.devRef .tc main_v2) = _
  after_results <;> rfl

/-! ## A launch leaves its inputs, and the arrays it does not name, as it found them -/

theorem W2_arg1 (c : Dev nD) : W2 m ρ c (Proc.devRef .tc main_arg1) = W1 m ρ c (Proc.devRef .tc main_arg1) :=
  W2_of_ne m ρ c main_arg1 (by decide)
theorem W2_arg2 (c : Dev nD) : W2 m ρ c (Proc.devRef .tc main_arg2) = W1 m ρ c (Proc.devRef .tc main_arg2) :=
  W2_of_ne m ρ c main_arg2 (by decide)
theorem W2_arg3 (c : Dev nD) : W2 m ρ c (Proc.devRef .tc main_arg3) = W1 m ρ c (Proc.devRef .tc main_arg3) :=
  (W2_arr m ρ c 1).trans (((dat0 (V1 m ρ) c).arrAt_in 1 rfl _).trans (A_eq0 (V1 m ρ) c 1))
theorem W2_v0 (c : Dev nD) : W2 m ρ c (Proc.devRef .tc main_v0) = W1 m ρ c (Proc.devRef .tc main_v0) :=
  (W2_arr m ρ c 2).trans (((dat0 (V1 m ρ) c).arrAt_in 2 rfl _).trans (A_eq0 (V1 m ρ) c 2))
theorem W2_v2 (c : Dev nD) : W2 m ρ c (Proc.devRef .tc main_v2) = W1 m ρ c (Proc.devRef .tc main_v2) :=
  (W2_arr m ρ c 3).trans (((dat0 (V1 m ρ) c).arrAt_in 3 rfl _).trans (A_eq0 (V1 m ρ) c 3))
theorem W2_v1 (c : Dev nD) : W2 m ρ c (Proc.devRef .tc main_v1) = W1 m ρ c (Proc.devRef .tc main_v1) :=
  (W2_arr m ρ c 4).trans (((dat0 (V1 m ρ) c).arrAt_in 4 rfl _).trans (A_eq0 (V1 m ρ) c 4))

theorem W3_arg2 (c : Dev nD) : W3 m ρ c (Proc.devRef .tc main_arg2) = W2 m ρ c (Proc.devRef .tc main_arg2) :=
  W3_of_ne m ρ c main_arg2 (by decide)
theorem W3_arg3 (c : Dev nD) : W3 m ρ c (Proc.devRef .tc main_arg3) = W2 m ρ c (Proc.devRef .tc main_arg3) :=
  (W3_arr m ρ c 1).trans (((dat1 (V2 m ρ) c).arrAt_in 1 rfl _).trans (A_eq1 (V2 m ρ) c 1))
theorem W3_v0 (c : Dev nD) : W3 m ρ c (Proc.devRef .tc main_v0) = W2 m ρ c (Proc.devRef .tc main_v0) :=
  (W3_arr m ρ c 2).trans (((dat1 (V2 m ρ) c).arrAt_in 2 rfl _).trans (A_eq1 (V2 m ρ) c 2))
theorem W3_v2 (c : Dev nD) : W3 m ρ c (Proc.devRef .tc main_v2) = W2 m ρ c (Proc.devRef .tc main_v2) :=
  (W3_arr m ρ c 3).trans (((dat1 (V2 m ρ) c).arrAt_in 3 rfl _).trans (A_eq1 (V2 m ρ) c 3))
theorem W3_v1 (c : Dev nD) : W3 m ρ c (Proc.devRef .tc main_v1) = W2 m ρ c (Proc.devRef .tc main_v1) :=
  (W3_arr m ρ c 4).trans (((dat1 (V2 m ρ) c).arrAt_in 4 rfl _).trans (A_eq1 (V2 m ρ) c 4))

/-! ## The prepared parameter arrays give the specification's function -/

/-- `GK` at the reshaped biases and the narrow-format second weight matrix is `G` at the arguments themselves. -/
theorem GK_prepared (pos : FVec Ideal S100000x3 .f32) (w1 : FVec Ideal S3x512 .f32) (b1 : FVec Ideal S512 .f32)
    (w2 : FVec Ideal S512x1024 .f32) (b2 : FVec Ideal S1024 .f32) :
    GK pos w1 (shapeCast S1x512 b1 shapeCasts_S512_S1x512) (truncf (F := Ideal) .bf16 w2 bitsLt_bf16_f32)
      (shapeCast S1x1024 b2 shapeCasts_S1024_S1x1024) = Spec.G pos w1 b1 w2 b2 := by
  funext j
  obtain ⟨n, q, rfl⟩ : ∃ (n : Fin 100000) (q : Fin 1024), j = ix2 n q := ⟨j 0, j 1, eq_ix2 j⟩
  show Spec.out (fun d => pos (ix2 n d)) (fun a k => w1 (ix2 a k))
      (fun k => shapeCast S1x512 b1 shapeCasts_S512_S1x512 (ix2 (0 : Fin 1) k))
      (fun k => truncf (F := Ideal) .bf16 w2 bitsLt_bf16_f32 (ix2 k q))
      (shapeCast S1x1024 b2 shapeCasts_S1024_S1x1024 (ix2 (0 : Fin 1) q))
    = Spec.out (fun d => pos (ix2 n d)) (fun a k => w1 (ix2 a k)) (fun k => b1 (ix1 k)) (fun k => w2 (ix2 k q)) (b2 (ix1 q))
  simp only [shapeCast_a_1a_apply, truncf_apply]

/-! ## The three results -/

theorem result0 (c : Dev nD) : (W4 m ρ c (Proc.devRef .tc main_v3) : S100000x1024.Idx → EReal)
    = Spec.G (m ((c : Thread nD τ).loc main_arg0)) (m ((c : Thread nD τ).loc main_arg3)) (m ((c : Thread nD τ).loc main_arg4))
        (m ((c : Thread nD τ).loc main_arg5)) (m ((c : Thread nD τ).loc main_arg6)) := by
  rw [← GK_prepared, ← W1_arg0 m ρ c, ← W1_arg3 m ρ c, ← W1_v0 m ρ c, ← W1_v2 m ρ c, ← W1_v1 m ρ c]
  exact ((W4_of_ne m ρ c main_v3 (by decide)).trans ((W3_of_ne m ρ c main_v3 (by decide)).trans (W2_arr m ρ c 5))).trans
    (final0 (V1 m ρ) c)

theorem result1 (c : Dev nD) : (W4 m ρ c (Proc.devRef .tc main_v4) : S100000x1024.Idx → EReal)
    = Spec.G (m ((c : Thread nD τ).loc main_arg1)) (m ((c : Thread nD τ).loc main_arg3)) (m ((c : Thread nD τ).loc main_arg4))
        (m ((c : Thread nD τ).loc main_arg5)) (m ((c : Thread nD τ).loc main_arg6)) := by
  rw [← GK_prepared, ← W1_arg1 m ρ c, ← W1_arg3 m ρ c, ← W1_v0 m ρ c, ← W1_v2 m ρ c, ← W1_v1 m ρ c,
    ← W2_arg1 m ρ c, ← W2_arg3 m ρ c, ← W2_v0 m ρ c, ← W2_v2 m ρ c, ← W2_v1 m ρ c]
  exact ((W4_of_ne m ρ c main_v4 (by decide)).trans (W3_arr m ρ c 5)).trans (final1 (V2 m ρ) c)

theorem result2 (c : Dev nD) : (W4 m ρ c (Proc.devRef .tc main_v5) : S100000x1024.Idx → EReal)
    = Spec.G (m ((c : Thread nD τ).loc main_arg2)) (m ((c : Thread nD τ).loc main_arg3)) (m ((c : Thread nD τ).loc main_arg4))
        (m ((c : Thread nD τ).loc main_arg5)) (m ((c : Thread nD τ).loc main_arg6)) := by
  rw [← GK_prepared, ← W1_arg2 m ρ c, ← W1_arg3 m ρ c, ← W1_v0 m ρ c, ← W1_v2 m ρ c, ← W1_v1 m ρ c,
    ← W2_arg2 m ρ c, ← W2_arg3 m ρ c, ← W2_v0 m ρ c, ← W2_v2 m ρ c, ← W2_v1 m ρ c,
    ← W3_arg2 m ρ c, ← W3_arg3 m ρ c, ← W3_v0 m ρ c, ← W3_v2 m ρ c, ← W3_v1 m ρ c]
  exact (W4_arr m ρ c 5).trans (final2 (V3 m ρ) c)

end Cert.KernelIdeal.Final

end
-- ==== Proof.LibConcat3.lean ====
/-
  A general fact about joining arrays: three pieces of one shape joined along an axis.
-/
import Idealize.ShloMosaic.Lib.Pipeline.Value

noncomputable section

namespace Cert.Lib

open Idealize.ShloMosaic

variable {α : Type}

/-- Three arrays of one shape `s₁`, of extent `K` along axis `a`, joined along that axis and read at an index `j`:
    the piece `n = j[a] / K` read at the index that has `j[a] % K` on the axis and `j`'s coordinates off it. -/
theorem concatenate_three_apply {t s₁ : Shape} (a : Fin t.rank) (p : Fin 3 → (s₁.Idx → α))
    (h : Shape.Concatenates [s₁, s₁, s₁] t a) (hr : s₁.rank = t.rank) (K : Nat) (hK : s₁.size (a.cast hr.symm) = K)
    (j : t.Idx) (n : Fin 3) (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, p 0⟩, ⟨s₁, p 1⟩, ⟨s₁, p 2⟩] h j = p n i :=
  concatenate_ofFn_apply a p h hr K hK j n hn i hia hi

end Cert.Lib

end
-- ==== Proof.RefValue.lean ====
/-
  The reference's three results are the specification's function of the arguments.

  The reference stacks the three features of every row into an [N, 3] array (a join of three columns along the second
  axis), multiplies it by w1, adds b1, rectifies, multiplies by w2 and adds b2. Read at an index, the join picks the
  column its second coordinate names, a matrix product is the sum over the contracted axis, and a sum along a row from the
  initial value zero is the plain sum of the row.
-/
import proofs.«154643_j88622355186348_2_alg».proof.Proof.Gen.ReferenceIdeal.Read
import proofs.«154643_j88622355186348_2_alg».proof.Proof.Spec
import proofs.«154643_j88622355186348_2_alg».proof.Proof.LibConcat3
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-- The norm column at row `n`. -/
theorem norm_apply (x0 : FVec Ideal S100000x3 .f32) (n : Fin 100000) :
    val_main_v4 (F := Ideal) x0 (ix2 n (0 : Fin 1)) = Ideal.sqrt (∑ d : Fin 3, x0 (ix2 n d) * x0 (ix2 n d)) := by
  have e4 : idx_main_v4 (ix2 n (0 : Fin 1)) = ix1 n := funext fun a => Fin.ext (by match a with | ⟨0, _⟩ => rfl)
  have e1 : ∀ d : Fin 3, idx_main_v1 (ix1 n) d = ix2 n d := fun d => funext fun a => Fin.ext (by
    match a with | ⟨0, _⟩ => rfl | ⟨1, _⟩ => rfl)
  rw [val_main_v4_apply, e4, val_main_v2_apply, val_main_v1_apply]
  simp only [val_main_cst_apply, val_main_v0_apply, e1, Ideal.hostUnary_sqrt_def, Ideal.mulf_def, Ideal.ofBits_def,
    Ideal.ofBits_zero_f32, zero_add]

/-- The sum column at row `n`. -/
theorem sum_apply (x0 : FVec Ideal S100000x3 .f32) (n : Fin 100000) :
    val_main_v5 (F := Ideal) x0 (ix2 n (0 : Fin 1)) = ∑ d : Fin 3, x0 (ix2 n d) := by
  have e5 : idx_main_v5 (ix2 n (0 : Fin 1)) = ix1 n := funext fun a => Fin.ext (by match a with | ⟨0, _⟩ => rfl)
  have e3 : ∀ d : Fin 3, idx_main_v3 (ix1 n) d = ix2 n d := fun d => funext fun a => Fin.ext (by
    match a with | ⟨0, _⟩ => rfl | ⟨1, _⟩ => rfl)
  rw [val_main_v5_apply, e5, val_main_v3_apply]
  simp only [val_main_cst_0_apply, e3, Ideal.ofBits_def, Ideal.ofBits_zero_f32, zero_add]

/-- The sum-of-squares column at row `n`. -/
theorem sumsq_apply (x0 : FVec Ideal S100000x3 .f32) (n : Fin 100000) :
    val_main_v6 (F := Ideal) x0 (ix2 n (0 : Fin 1)) = ∑ d : Fin 3, x0 (ix2 n d) * x0 (ix2 n d) := by
  have e6 : idx_main_v6 (ix2 n (0 : Fin 1)) = ix1 n := funext fun a => Fin.ext (by match a with | ⟨0, _⟩ => rfl)
  have e1 : ∀ d : Fin 3, idx_main_v1 (ix1 n) d = ix2 n d := fun d => funext fun a => Fin.ext (by
    match a with | ⟨0, _⟩ => rfl | ⟨1, _⟩ => rfl)
  rw [val_main_v6_apply, e6, val_main_v1_apply]
  simp only [val_main_cst_apply, val_main_v0_apply, e1, Ideal.mulf_def, Ideal.ofBits_def, Ideal.ofBits_zero_f32, zero_add]

/-- The stacked feature array at `(n, q)` is feature `q` of row `n`. -/
theorem feat_apply (x0 : FVec Ideal S100000x3 .f32) (n : Fin 100000) (q : Fin 3) :
    val_main_v7 (F := Ideal) x0 (ix2 n q) = Spec.feat (fun d => x0 (ix2 n d)) q := by
  unfold val_main_v7
  refine (Cert.Lib.concatenate_three_apply (t := S100000x3) (s₁ := S100000x1) (1 : Fin 2)
    ![val_main_v4 (F := Ideal) x0, val_main_v5 (F := Ideal) x0, val_main_v6 (F := Ideal) x0]
    concatenates_S100000x1_S100000x1_S100000x1_S100000x3_d1 rfl 1 rfl (ix2 n q) q (Nat.div_one _)
    (ix2 n (0 : Fin 1)) (Nat.mod_one _).symm (fun b hb => by
      match b with
      | ⟨0, _⟩ => rfl
      | ⟨1, _⟩ => exact absurd rfl hb)).trans ?_
  unfold Spec.feat
  match q with
  | ⟨0, _⟩ => exact norm_apply x0 n
  | ⟨1, _⟩ => exact sum_apply x0 n
  | ⟨2, _⟩ => exact sumsq_apply x0 n

/-- The first result, index by index. -/
theorem result0_eq (x0 : FVec Ideal S100000x3 .f32) (x3 : FVec Ideal S3x512 .f32) (x4 : FVec Ideal S512 .f32)
    (x5 : FVec Ideal S512x1024 .f32) (x6 : FVec Ideal S1024 .f32) :
    val_main_v16 (F := Ideal) x0 x3 x4 x5 x6 = Spec.G x0 x3 x4 x5 x6 := by
  funext j
  obtain ⟨n, q, rfl⟩ : ∃ (n : Fin 100000) (q : Fin 1024), j = ix2 n q := ⟨j 0, j 1, eq_ix2 j⟩
  have e14 : idx_main_v14 (idx_main_v15 (ix2 n q)) = ix1 q := funext fun a => Fin.ext (by match a with | ⟨0, _⟩ => rfl)
  rw [val_main_v16_apply, val_main_v13_apply, val_main_v15_apply, val_main_v14_apply, e14]
  show (∑ k : Fin 512, _) + x6 (ix1 q) = Spec.out (fun d => x0 (ix2 n d)) (fun a k => x3 (ix2 a k)) (fun k => x4 (ix1 k))
    (fun k => x5 (ix2 k q)) (x6 (ix1 q))
  unfold Spec.out
  refine congrArg (· + x6 (ix1 q)) (Finset.sum_congr rfl fun k _ => ?_)
  have el : lidx_main_v13 (ix2 n q) k = ix2 n k := funext fun a => Fin.ext (by match a with | ⟨0, _⟩ => rfl | ⟨1, _⟩ => rfl)
  have er : ridx_main_v13 (ix2 n q) k = ix2 k q := funext fun a => Fin.ext (by match a with | ⟨0, _⟩ => rfl | ⟨1, _⟩ => rfl)
  rw [el, er]
  refine congrArg (· * x5 (ix2 k q)) ?_
  have e9 : idx_main_v9 (idx_main_v10 (ix2 n k)) = ix1 k := funext fun a => Fin.ext (by match a with | ⟨0, _⟩ => rfl)
  have el8 : ∀ d : Fin 3, lidx_main_v8 (ix2 n k) d = ix2 n d := fun d => funext fun a => Fin.ext (by
    match a with | ⟨0, _⟩ => rfl | ⟨1, _⟩ => rfl)
  have er8 : ∀ d : Fin 3, ridx_main_v8 (ix2 n k) d = ix2 d k := fun d => funext fun a => Fin.ext (by
    match a with | ⟨0, _⟩ => rfl | ⟨1, _⟩ => rfl)
  rw [val_main_v12_apply, val_main_v11_apply, val_main_v8_apply, val_main_v10_apply, val_main_v9_apply, e9,
    val_main_call0_v0_apply, val_main_call0_cst_apply]
  simp only [el8, er8, feat_apply, Ideal.maximumf_def, Ideal.addf_def, Ideal.ofBits_def, Ideal.ofBits_zero_f32]
  rfl

/-- The second and third results are the same composition of operations applied to their own position array, so the
    same function of it. -/
theorem result1_eq (x1 : FVec Ideal S100000x3 .f32) (x3 : FVec Ideal S3x512 .f32) (x4 : FVec Ideal S512 .f32)
    (x5 : FVec Ideal S512x1024 .f32) (x6 : FVec Ideal S1024 .f32) :
    val_main_v33 (F := Ideal) x1 x3 x4 x5 x6 = Spec.G x1 x3 x4 x5 x6 :=
  result0_eq x1 x3 x4 x5 x6
theorem result2_eq (x2 : FVec Ideal S100000x3 .f32) (x3 : FVec Ideal S3x512 .f32) (x4 : FVec Ideal S512 .f32)
    (x5 : FVec Ideal S512x1024 .f32) (x6 : FVec Ideal S1024 .f32) :
    val_main_v50 (F := Ideal) x2 x3 x4 x5 x6 = Spec.G x2 x3 x4 x5 x6 :=
  result0_eq x2 x3 x4 x5 x6

end Cert.ReferenceIdeal.RefValue

end
-- ==== Proof.lean ====
/-
  Both programs map three position arrays pos_i : [100000, 3] and the parameters w1 : [3, 512], b1 : [512],
  w2 : [512, 1024], b2 : [1024] to three arrays out_i : [100000, 1024],
      out_i[n, j] = Σ_k max (Σ_q feat(pos_i[n, ·])_q · w1[q, k] + b1[k], 0) · w2[k, j] + b2[j],
  with feat(P) = (√(Σ_d P_d²), Σ_d P_d, Σ_d P_d²)  (Proof/Spec.lean: `Spec.G`).

  The kernel launches one body three times, once per position array, over 50 blocks of 2000 rows; the body forms the
  feature product as three multiply-adds over broadcast columns, rounds the hidden block to the narrow format (the
  identity on extended reals) and multiplies by w2 into a zero accumulator. The reference stacks the features into an
  [N, 3] array and uses two matrix products. On the extended reals the two differ only in how a three-term sum is
  grouped, so the results are equal entry by entry; the inputs' finiteness is not used.

  The modules: Spec (the function), Payload (one block's stored value at an index), Blocks (from the 50 blocks to the
  whole output array, per launch), KernelRun (the kernel's run with every buffer named at its end), KernelValue (the
  three results as `Spec.G` of the arguments), RefValue (the reference's three results as `Spec.G`).
-/
import proofs.«154643_j88622355186348_2_alg».proof.Defs
import proofs.«154643_j88622355186348_2_alg».proof.Proof.Gen.Kernel
import proofs.«154643_j88622355186348_2_alg».proof.Proof.Gen.Kernel.Skeleton
import proofs.«154643_j88622355186348_2_alg».proof.Proof.Gen.Kernel.Launch
import proofs.«154643_j88622355186348_2_alg».proof.Proof.Gen.Kernel.Points
import proofs.«154643_j88622355186348_2_alg».proof.Proof.Gen.Kernel.Frame
import proofs.«154643_j88622355186348_2_alg».proof.Proof.Gen.KernelIdeal
import proofs.«154643_j88622355186348_2_alg».proof.Proof.Gen.KernelIdeal.Skeleton
import proofs.«154643_j88622355186348_2_alg».proof.Proof.Gen.KernelIdeal.Launch
import proofs.«154643_j88622355186348_2_alg».proof.Proof.Gen.KernelIdeal.Points
import proofs.«154643_j88622355186348_2_alg».proof.Proof.Gen.KernelIdeal.Frame
import proofs.«154643_j88622355186348_2_alg».proof.Proof.Gen.ReferenceIdeal
import proofs.«154643_j88622355186348_2_alg».proof.Proof.Gen.Pre_finite_inputs
import proofs.«154643_j88622355186348_2_alg».proof.Proof.Gen.ReferenceIdeal.Run
import proofs.«154643_j88622355186348_2_alg».proof.Proof.Gen.ReferenceIdeal.Read
import proofs.«154643_j88622355186348_2_alg».proof.Proof.Spec
import proofs.«154643_j88622355186348_2_alg».proof.Proof.KernelRun
import proofs.«154643_j88622355186348_2_alg».proof.Proof.KernelValue
import proofs.«154643_j88622355186348_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- Both runs end with result `i` at `Spec.G` of position array `i` and the four parameter arrays: the kernel's by
    reading its final memory at the last boundary's contents and walking each result back to the one launch that wrote
    it; the reference's by its run read one operation at a time; the two memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.G (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.G (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨?_, ?_, ?_, ?_, ?_, ?_, ?_, ?_, ?_, ?_⟩)
      (Cert.KernelIdeal.RunValue.run_W4 (F := Ideal) m ρ)
    · exact (h c Cert.KernelIdeal.main_v3 (by decide)).trans (Cert.KernelIdeal.Final.result0 m ρ c)
    · exact (h c Cert.KernelIdeal.main_v4 (by decide)).trans (Cert.KernelIdeal.Final.result1 m ρ c)
    · exact (h c Cert.KernelIdeal.main_v5 (by decide)).trans (Cert.KernelIdeal.Final.result2 m ρ c)
    · exact (h c Cert.KernelIdeal.main_arg0 (by decide)).trans (Cert.KernelIdeal.Gen.W4_main_arg0 m ρ c)
    · exact (h c Cert.KernelIdeal.main_arg1 (by decide)).trans (Cert.KernelIdeal.Gen.W4_main_arg1 m ρ c)
    · exact (h c Cert.KernelIdeal.main_arg2 (by decide)).trans (Cert.KernelIdeal.Gen.W4_main_arg2 m ρ c)
    · exact (h c Cert.KernelIdeal.main_arg3 (by decide)).trans (Cert.KernelIdeal.Gen.W4_main_arg3 m ρ c)
    · exact (h c Cert.KernelIdeal.main_arg4 (by decide)).trans (Cert.KernelIdeal.Gen.W4_main_arg4 m ρ c)
    · exact (h c Cert.KernelIdeal.main_arg5 (by decide)).trans (Cert.KernelIdeal.Gen.W4_main_arg5 m ρ c)
    · exact (h c Cert.KernelIdeal.main_arg6 (by decide)).trans (Cert.KernelIdeal.Gen.W4_main_arg6 m ρ c)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v16_eq, Cert.ReferenceIdeal.RefValue.result0_eq,
        (hagree c).1, (hagree c).2.2.2.1, (hagree c).2.2.2.2.1, (hagree c).2.2.2.2.2.1, (hagree c).2.2.2.2.2.2]
    · rw [(h c).2.1, Cert.ReferenceIdeal.Read.val_main_v33_eq, Cert.ReferenceIdeal.RefValue.result1_eq,
        (hagree c).2.1, (hagree c).2.2.2.1, (hagree c).2.2.2.2.1, (hagree c).2.2.2.2.2.1, (hagree c).2.2.2.2.2.2]
    · rw [(h c).2.2.1, Cert.ReferenceIdeal.Read.val_main_v50_eq, Cert.ReferenceIdeal.RefValue.result2_eq,
        (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
